-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S1x2048x128 : Shape := ⟨3, ![1, 2048, 128]⟩
abbrev S1x1024x128 : Shape := ⟨3, ![1, 1024, 128]⟩
abbrev S2048x128 : Shape := ⟨2, ![2048, 128]⟩
abbrev S2048x1 : Shape := ⟨2, ![2048, 1]⟩
abbrev S1024x128 : Shape := ⟨2, ![1024, 128]⟩
abbrev S2048x1024 : Shape := ⟨2, ![2048, 1024]⟩
abbrev S2048 : Shape := ⟨1, ![2048]⟩

abbrev nBuf : Space → Nat
  | .hbm => 4
  | .vmem => 10
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .local _ .vmem, ⟨0, _⟩ => ⟨S1x2048x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x2048x128, .f32⟩
  | .local _ .vmem, ⟨6, _⟩ => ⟨S2048x128, .bf16⟩
  | .local _ .vmem, ⟨7, _⟩ => ⟨S2048x1, .f32⟩
  | .local _ .vmem, ⟨8, _⟩ => ⟨S2048x1, .f32⟩
  | .local _ .vmem, ⟨9, _⟩ => ⟨S2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_23 : BitVec 32 := 0#32
  let v42 : BitVec 1 := Scalar.cmpi .ne v41 c0_i32_23
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x128 : S2048x1.Broadcasts S2048x128
  shapeCasts_S2048x128_S1x2048x128 : S2048x128.ShapeCasts S1x2048x128
  dot_S2048x128_S1024x128_S2048x1024_1_1_0_0_n_n_wf : DotDims.WF S2048x128 S1024x128 S2048x1024 [1] [1] [0] [0] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x2048x128.size a
  hwx0_1 : ∀ i : grid0.Coords, EltTy.bits .f32 = 32 ∨ (Rect.block (s := S16x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S16x2048x128.size a
  hwx0_2 : ∀ i : grid0.Coords, EltTy.bits .f32 = 32 ∨ (Rect.block (s := S16x2048x128) S1x1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .f32 = 32 ∨ (Rect.block (s := S16x2048x128) S1x2048x128.size (cc0_transform_3 i) (hinb0_3 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1x2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Pieces.lean ====
import proofs.«116436_j27255862461085_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each pass of the body leaves behind, as pure terms over what it read.

  The first pass over a batch (the first half of the keys) resets the running maximum to -∞ and the running
  normaliser and weighted sum to zero, stores the scaled queries, and then does one streaming step from those
  initial values; the second pass does one more step from what the first left and divides. Every store covers its
  whole buffer, so what a buffer holds afterwards is the last store's value, and a load after a store reads that
  store's value.
-/
namespace Cert.KernelIdeal.Pieces
open Cert.KernelIdeal Cert.KernelIdeal.Gen
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- After the first pass the query scratch holds the scaled query block. -/
theorem scaled_queries (c : Dev nD) (i : grid0.Coords) (a2 : Memref sig .tc .vmem S1x2048x128 .f32) (h2 : a2.IsWhole) (a3 : Memref sig .tc .vmem S1x1024x128 .f32) (h3 : a3.IsWhole) (a4 : Memref sig .tc .vmem S1x1024x128 .f32) (h4 : a4.IsWhole) (a5 : Memref sig .tc .vmem S1x2048x128 .f32) (h5 : a5.IsWhole) (a6 : Memref sig .tc .vmem S2048x128 .bf16) (h6 : a6.IsWhole) (a7 : Memref sig .tc .vmem S2048x1 .f32) (h7 : a7.IsWhole) (a8 : Memref sig .tc .vmem S2048x1 .f32) (h8 : a8.IsWhole) (a9 : Memref sig .tc .vmem S2048x128 .f32) (h9 : a9.IsWhole) (hc0 : cond0_0 i) (hc1 : ¬cond0_1 i)
    (x0 : Vec F S1x2048x128 .f32) (x1 : Vec F S1x1024x128 .f32) (x2 : Vec F S1x1024x128 .f32) :
    sout0_A_0 c i a2 h2 a3 h3 a4 h4 a5 h5 a6 h6 a7 h7 a8 h8 a9 h9 hc0 hc1 x0 x1 x2 = k0_pay7 x0 := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  simp only [View.canon_cons_unit_zero (S := S2048x1) hz2, View.canon_cons_unit_zero (S := S2048x128) hz2,
    View.canon_cons_unit_zero (S := S1x2048x128) hz3,
    View.readCov_unit_zero (S := S2048x1) (h := hz2), View.readCov_unit_zero (S := S2048x128) (h := hz2),
    View.readAt_eq_ld, h2.read_unread, h3.read_unread, h4.read_unread, h5.read_unread, h6.read_unread, h7.read_unread,
    h8.read_unread, h9.read_unread,
    View.ld_unit_zero (S := S1x2048x128) hz3, View.ld_unit_zero (S := S1x1024x128) hz3,
    View.ld_unit_zero (S := S2048x1) hz2, View.ld_unit_zero (S := S2048x128) hz2]

/-- After the first pass the running maximum is one step from -∞. -/
theorem first_max (c : Dev nD) (i : grid0.Coords) (a2 : Memref sig .tc .vmem S1x2048x128 .f32) (h2 : a2.IsWhole) (a3 : Memref sig .tc .vmem S1x1024x128 .f32) (h3 : a3.IsWhole) (a4 : Memref sig .tc .vmem S1x1024x128 .f32) (h4 : a4.IsWhole) (a5 : Memref sig .tc .vmem S1x2048x128 .f32) (h5 : a5.IsWhole) (a6 : Memref sig .tc .vmem S2048x128 .bf16) (h6 : a6.IsWhole) (a7 : Memref sig .tc .vmem S2048x1 .f32) (h7 : a7.IsWhole) (a8 : Memref sig .tc .vmem S2048x1 .f32) (h8 : a8.IsWhole) (a9 : Memref sig .tc .vmem S2048x128 .f32) (h9 : a9.IsWhole) (hc0 : cond0_0 i) (hc1 : ¬cond0_1 i)
    (x0 : Vec F S1x2048x128 .f32) (x1 : Vec F S1x1024x128 .f32) (x2 : Vec F S1x1024x128 .f32) :
    sout0_A_1 c i a2 h2 a3 h3 a4 h4 a5 h5 a6 h6 a7 h7 a8 h8 a9 h9 hc0 hc1 x0 x1 x2 = k0_pay2 (k0_pay9 (k0_pay7 x0) x1 k0_pay4) := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  simp only [View.canon_cons_unit_zero (S := S2048x1) hz2, View.canon_cons_unit_zero (S := S2048x128) hz2,
    View.canon_cons_unit_zero (S := S1x2048x128) hz3,
    View.readCov_unit_zero (S := S2048x1) (h := hz2), View.readCov_unit_zero (S := S2048x128) (h := hz2),
    View.readAt_eq_ld, h2.read_unread, h3.read_unread, h4.read_unread, h5.read_unread, h6.read_unread, h7.read_unread,
    h8.read_unread, h9.read_unread,
    View.ld_unit_zero (S := S1x2048x128) hz3, View.ld_unit_zero (S := S1x1024x128) hz3,
    View.ld_unit_zero (S := S2048x1) hz2, View.ld_unit_zero (S := S2048x128) hz2]

/-- After the first pass the running normaliser is one step from zero. -/
theorem first_norm (c : Dev nD) (i : grid0.Coords) (a2 : Memref sig .tc .vmem S1x2048x128 .f32) (h2 : a2.IsWhole) (a3 : Memref sig .tc .vmem S1x1024x128 .f32) (h3 : a3.IsWhole) (a4 : Memref sig .tc .vmem S1x1024x128 .f32) (h4 : a4.IsWhole) (a5 : Memref sig .tc .vmem S1x2048x128 .f32) (h5 : a5.IsWhole) (a6 : Memref sig .tc .vmem S2048x128 .bf16) (h6 : a6.IsWhole) (a7 : Memref sig .tc .vmem S2048x1 .f32) (h7 : a7.IsWhole) (a8 : Memref sig .tc .vmem S2048x1 .f32) (h8 : a8.IsWhole) (a9 : Memref sig .tc .vmem S2048x128 .f32) (h9 : a9.IsWhole) (hc0 : cond0_0 i) (hc1 : ¬cond0_1 i)
    (x0 : Vec F S1x2048x128 .f32) (x1 : Vec F S1x1024x128 .f32) (x2 : Vec F S1x1024x128 .f32) :
    sout0_A_2 c i a2 h2 a3 h3 a4 h4 a5 h5 a6 h6 a7 h7 a8 h8 a9 h9 hc0 hc1 x0 x1 x2 = k0_pay12 (k0_pay7 x0) x1 k0_pay4 k0_pay5 := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  simp only [View.canon_cons_unit_zero (S := S2048x1) hz2, View.canon_cons_unit_zero (S := S2048x128) hz2,
    View.canon_cons_unit_zero (S := S1x2048x128) hz3,
    View.readCov_unit_zero (S := S2048x1) (h := hz2), View.readCov_unit_zero (S := S2048x128) (h := hz2),
    View.readAt_eq_ld, h2.read_unread, h3.read_unread, h4.read_unread, h5.read_unread, h6.read_unread, h7.read_unread,
    h8.read_unread, h9.read_unread,
    View.ld_unit_zero (S := S1x2048x128) hz3, View.ld_unit_zero (S := S1x1024x128) hz3,
    View.ld_unit_zero (S := S2048x1) hz2, View.ld_unit_zero (S := S2048x128) hz2]

/-- After the first pass the running weighted sum is one step from zero. -/
theorem first_acc (c : Dev nD) (i : grid0.Coords) (a2 : Memref sig .tc .vmem S1x2048x128 .f32) (h2 : a2.IsWhole) (a3 : Memref sig .tc .vmem S1x1024x128 .f32) (h3 : a3.IsWhole) (a4 : Memref sig .tc .vmem S1x1024x128 .f32) (h4 : a4.IsWhole) (a5 : Memref sig .tc .vmem S1x2048x128 .f32) (h5 : a5.IsWhole) (a6 : Memref sig .tc .vmem S2048x128 .bf16) (h6 : a6.IsWhole) (a7 : Memref sig .tc .vmem S2048x1 .f32) (h7 : a7.IsWhole) (a8 : Memref sig .tc .vmem S2048x1 .f32) (h8 : a8.IsWhole) (a9 : Memref sig .tc .vmem S2048x128 .f32) (h9 : a9.IsWhole) (hc0 : cond0_0 i) (hc1 : ¬cond0_1 i)
    (x0 : Vec F S1x2048x128 .f32) (x1 : Vec F S1x1024x128 .f32) (x2 : Vec F S1x1024x128 .f32) :
    sout0_A_3 c i a2 h2 a3 h3 a4 h4 a5 h5 a6 h6 a7 h7 a8 h8 a9 h9 hc0 hc1 x0 x1 x2 = k0_pay1 (k0_pay13 (k0_pay7 x0) x1 x2 k0_pay4 k0_pay6) := by
  unfold sout0_A_3
  rw [View.read_writes_eq_canon _ _ _ (scover0_A_3 c i a2 h2 a3 h3 a4 h4 a5 h5 a6 h6 a7 h7 a8 h8 a9 h9 hc0 hc1 x0 x1 x2)]
  unfold kernelRun0_A
  dsimp only
  sl_unfold_words
  simp only [View.canon_cons_unit_zero (S := S2048x1) hz2, View.canon_cons_unit_zero (S := S2048x128) hz2,
    View.canon_cons_unit_zero (S := S1x2048x128) hz3,
    View.readCov_unit_zero (S := S2048x1) (h := hz2), View.readCov_unit_zero (S := S2048x128) (h := hz2),
    View.readAt_eq_ld, h2.read_unread, h3.read_unread, h4.read_unread, h5.read_unread, h6.read_unread, h7.read_unread,
    h8.read_unread, h9.read_unread,
    View.ld_unit_zero (S := S1x2048x128) hz3, View.ld_unit_zero (S := S1x1024x128) hz3,
    View.ld_unit_zero (S := S2048x1) hz2, View.ld_unit_zero (S := S2048x128) hz2]

/-- The second pass leaves in the output block the quotient of one more step of the weighted sum by one more step
    of the normaliser, from what the pass before left. -/
theorem second_out (c : Dev nD) (i : grid0.Coords) (a2 : Memref sig .tc .vmem S1x2048x128 .f32) (h2 : a2.IsWhole) (a3 : Memref sig .tc .vmem S1x1024x128 .f32) (h3 : a3.IsWhole) (a4 : Memref sig .tc .vmem S1x1024x128 .f32) (h4 : a4.IsWhole) (a5 : Memref sig .tc .vmem S1x2048x128 .f32) (h5 : a5.IsWhole) (a6 : Memref sig .tc .vmem S2048x128 .bf16) (h6 : a6.IsWhole) (a7 : Memref sig .tc .vmem S2048x1 .f32) (h7 : a7.IsWhole) (a8 : Memref sig .tc .vmem S2048x1 .f32) (h8 : a8.IsWhole) (a9 : Memref sig .tc .vmem S2048x128 .f32) (h9 : a9.IsWhole) (hc0 : ¬cond0_0 i) (hc1 : cond0_1 i)
    (x0 : Vec F S1x2048x128 .f32) (x1 : Vec F S1x1024x128 .f32) (x2 : Vec F S1x1024x128 .f32)
    (xs0 : Vec F S2048x128 .bf16) (xs1 : Vec F S2048x1 .f32) (xs2 : Vec F S2048x1 .f32) (xs3 : Vec F S2048x128 .f32) :
    out0_B_3 c i a2 h2 a3 h3 a4 h4 a5 h5 a6 h6 a7 h7 a8 h8 a9 h9 hc0 hc1 x0 x1 x2 xs0 xs1 xs2 xs3
      = k0_pay3 (k0_pay1 (k0_pay13 xs0 x1 x2 xs1 xs3)) (k0_pay12 xs0 x1 xs1 xs2) := by
  unfold out0_B_3
  rw [View.read_writes_eq_canon _ _ _ (cover0_B_3 c i a2 h2 a3 h3 a4 h4 a5 h5 a6 h6 a7 h7 a8 h8 a9 h9 hc0 hc1 x0 x1 x2 xs0 xs1 xs2 xs3)]
  unfold kernelRun0_B
  dsimp only
  sl_unfold_words
  simp only [View.canon_cons_unit_zero (S := S2048x1) hz2, View.canon_cons_unit_zero (S := S2048x128) hz2,
    View.canon_cons_unit_zero (S := S1x2048x128) hz3,
    View.readCov_unit_zero (S := S2048x1) (h := hz2), View.readCov_unit_zero (S := S2048x128) (h := hz2),
    View.readAt_eq_ld, h2.read_unread, h3.read_unread, h4.read_unread, h5.read_unread, h6.read_unread, h7.read_unread,
    h8.read_unread, h9.read_unread,
    View.ld_unit_zero (S := S1x2048x128) hz3, View.ld_unit_zero (S := S1x1024x128) hz3,
    View.ld_unit_zero (S := S2048x1) hz2, View.ld_unit_zero (S := S2048x128) hz2]

end Cert.KernelIdeal.Pieces
end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.PayloadAt.lean ====
/-
  The body's arithmetic read at an index, at the exact instance (every float an extended real): the scaled queries,
  the score matrix of a key block, its row maxima against the running maximum, the rescaling factor, the
  exponentials, and one streaming step of the normaliser and of the weighted sum; the final quotient.
-/
import proofs.«116436_j27255862461085_2_alg».proof.Proof.Gen.KernelIdeal.Skeleton
import proofs.«116436_j27255862461085_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.PayloadAt

open Cert.KernelIdeal Cert.KernelIdeal.Gen Idealize.ShloMosaic Idealize.ShloMosaic.ValueIdx Cert.Lib

/-- The named multiplier denotes the reciprocal of the reference's divisor. -/
theorem inv_temp : Named.named (F := Ideal) Cert.KernelIdeal.κ "inv_temperature" (φ := .f32) 0x3DB504F3#32
    = ((1048576 / 11863283 : ℝ) : EReal) :=
  IdealRules.named_const.ideal_named_scalar _ _ _ _ rfl

/-- The two products' operand indices, coordinate by coordinate: a kept axis follows the output index. -/
theorem qk_lhs0 (i : S2048x1024.Idx) (q : dot_S2048x128_S1024x128_S2048x1024_1_1_0_0_n_n.contr.Idx) : (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem qk_rhs0 (i : S2048x1024.Idx) (q : dot_S2048x128_S1024x128_S2048x1024_1_1_0_0_n_n.contr.Idx) : (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem pv_lhs0 (i : S2048x128.Idx) (q : dot_S2048x1024_S1024x128_S2048x128_1_0_0_1_n_n.contr.Idx) : (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem pv_rhs1 (i : S2048x128.Idx) (q : dot_S2048x1024_S1024x128_S2048x128_1_0_0_1_n_n.contr.Idx) : (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- Query rows against key rows: entry (n, j) of the score matrix is the dot product over the 128 features. -/
theorem qk_at (l : FVec Ideal S2048x128 .bf16) (r : FVec Ideal S1024x128 .bf16) (n : Fin 2048) (j : Fin 1024) :
    matmul (F := Ideal) dot_S2048x128_S1024x128_S2048x1024_1_1_0_0_n_n none l r (constant S2048x1024 .f32 0x00000000#32) (ix2 n j)
      = ∑ a : Fin 128, l (ix2 n a) * r (ix2 j a) := by
  simp only [matmul]
  rw [Ideal.matmul_constant_zero_apply, ← Equiv.sum_comp (contrEquiv1 dot_S2048x128_S1024x128_S2048x1024_1_1_0_0_n_n 128 rfl rfl).symm]
  refine Finset.sum_congr rfl fun a _ => ?_
  have hk := contrEquiv1_symm_val dot_S2048x128_S1024x128_S2048x1024_1_1_0_0_n_n 128 rfl rfl a
  have el : dot_S2048x128_S1024x128_S2048x1024_1_1_0_0_n_n.lhsIdx (ix2 n j) ((contrEquiv1 dot_S2048x128_S1024x128_S2048x1024_1_1_0_0_n_n 128 rfl rfl).symm a) = ix2 n a := funext fun ax => Fin.ext (by
    match ax with
    | ⟨0, _⟩ => exact qk_lhs0 _ _
    | ⟨1, _⟩ => exact (dot_S2048x128_S1024x128_S2048x1024_1_1_0_0_n_n.lhsIdx_val_of_single rfl _ _).trans hk)
  have er : dot_S2048x128_S1024x128_S2048x1024_1_1_0_0_n_n.rhsIdx (ix2 n j) ((contrEquiv1 dot_S2048x128_S1024x128_S2048x1024_1_1_0_0_n_n 128 rfl rfl).symm a) = ix2 j a := funext fun ax => Fin.ext (by
    match ax with
    | ⟨0, _⟩ => exact qk_rhs0 _ _
    | ⟨1, _⟩ => exact (dot_S2048x128_S1024x128_S2048x1024_1_1_0_0_n_n.rhsIdx_val_of_single rfl _ _).trans hk)
  rw [el, er]

/-- Weights against value rows: entry (n, d) is the sum over the block's 1024 keys. -/
theorem pv_at (l : FVec Ideal S2048x1024 .bf16) (r : FVec Ideal S1024x128 .bf16) (n : Fin 2048) (d : Fin 128) :
    matmul (F := Ideal) dot_S2048x1024_S1024x128_S2048x128_1_0_0_1_n_n none l r (constant S2048x128 .f32 0x00000000#32) (ix2 n d)
      = ∑ j : Fin 1024, l (ix2 n j) * r (ix2 j d) := by
  simp only [matmul]
  rw [Ideal.matmul_constant_zero_apply, ← Equiv.sum_comp (contrEquiv1 dot_S2048x1024_S1024x128_S2048x128_1_0_0_1_n_n 1024 rfl rfl).symm]
  refine Finset.sum_congr rfl fun j _ => ?_
  have hk := contrEquiv1_symm_val dot_S2048x1024_S1024x128_S2048x128_1_0_0_1_n_n 1024 rfl rfl j
  have el : dot_S2048x1024_S1024x128_S2048x128_1_0_0_1_n_n.lhsIdx (ix2 n d) ((contrEquiv1 dot_S2048x1024_S1024x128_S2048x128_1_0_0_1_n_n 1024 rfl rfl).symm j) = ix2 n j := funext fun ax => Fin.ext (by
    match ax with
    | ⟨0, _⟩ => exact pv_lhs0 _ _
    | ⟨1, _⟩ => exact (dot_S2048x1024_S1024x128_S2048x128_1_0_0_1_n_n.lhsIdx_val_of_single rfl _ _).trans hk)
  have er : dot_S2048x1024_S1024x128_S2048x128_1_0_0_1_n_n.rhsIdx (ix2 n d) ((contrEquiv1 dot_S2048x1024_S1024x128_S2048x128_1_0_0_1_n_n 1024 rfl rfl).symm j) = ix2 j d := funext fun ax => Fin.ext (by
    match ax with
    | ⟨0, _⟩ => exact (dot_S2048x1024_S1024x128_S2048x128_1_0_0_1_n_n.rhsIdx_val_of_single rfl _ _).trans hk
    | ⟨1, _⟩ => exact pv_rhs1 _ _)
  rw [el, er]

/-- A row's maximum over the block's keys: the fold of max from -∞. -/
theorem rowmax_at (x : FVec Ideal S2048x1024 .f32) (n : Fin 2048) :
    multiReduction (F := Ideal) .maximumf [1] S2048 x 0xFF800000#32 reduces_S2048x1024_S2048 (.inl rfl) rfl (ix1 n)
      = (Finset.univ : Finset (Fin 1024)).fold max (Ideal.ofBits .f32 0xFF800000#32) (fun j => x (ix2 n j)) := by
  refine (Ideal.multiReduction_maximumf_single x 0xFF800000#32 reduces_S2048x1024_S2048 (.inl rfl) rfl (ix1 n)).trans ?_
  exact congrArg (fun f => Finset.fold max (Ideal.ofBits .f32 0xFF800000#32) f (Finset.univ : Finset (Fin 1024)))
    (funext fun j => congrArg x (funext fun ax => Fin.ext (by match ax with | ⟨0, _⟩ => rfl | ⟨1, _⟩ => rfl)))

/-- A row's sum over the block's keys. -/
theorem rowsum_at (x : FVec Ideal S2048x1024 .f32) (n : Fin 2048) :
    multiReduction (F := Ideal) .add [1] S2048 x 0x00000000#32 reduces_S2048x1024_S2048 (.inl rfl) rfl (ix1 n)
      = ∑ j : Fin 1024, x (ix2 n j) := by
  refine (Ideal.multiReduction_add_single x 0x00000000#32 reduces_S2048x1024_S2048 (.inl rfl) rfl (ix1 n)).trans ?_
  exact Finset.sum_congr rfl fun j _ =>
    congrArg x (funext fun ax => Fin.ext (by match ax with | ⟨0, _⟩ => rfl | ⟨1, _⟩ => rfl))

/-- The scaled queries: each query entry times the named multiplier (the change of format is the identity). -/
theorem scaled_at (x0 : FVec Ideal S1x2048x128 .f32) (n : Fin 2048) (a : Fin 128) :
    k0_pay7 (F := Ideal) x0 (ix2 n a) = x0 (ix3 (0 : Fin 1) n a) * ((1048576 / 11863283 : ℝ) : EReal) := by
  unfold k0_pay7
  try dsimp only
  rw [shapeCast_self]
  show shapeCast S2048x128 x0 shapeCasts_S1x2048x128_S2048x128 (ix2 n a) * Named.named (F := Ideal) κ "inv_temperature" (φ := .f32) 0x3DB504F3#32 = _
  rw [shapeCast_1ab_ab_apply, inv_temp]

/-- The score matrix of a key block. -/
theorem scores_at (v3 : FVec Ideal S2048x128 .bf16) (v4 : FVec Ideal S1x1024x128 .f32) (n : Fin 2048) (j : Fin 1024) :
    k0_pay8 (F := Ideal) v3 v4 (ix2 n j) = ∑ a : Fin 128, v3 (ix2 n a) * v4 (ix3 (0 : Fin 1) j a) := by
  unfold k0_pay8
  try dsimp only
  refine (qk_at v3 _ n j).trans (Finset.sum_congr rfl fun a _ => congrArg (v3 (ix2 n a) * ·) ?_)
  exact shapeCast_1ab_ab_apply v4 _ j a

/-- The new running maximum of row n: the old one against the block's row maximum. -/
theorem newmax_at (v3 : FVec Ideal S2048x128 .bf16) (v4 : FVec Ideal S1x1024x128 .f32) (v11 : FVec Ideal S2048x1 .f32) (n : Fin 2048) :
    k0_pay9 (F := Ideal) v3 v4 v11 (ix2 n (0 : Fin 1))
      = max (v11 (ix2 n (0 : Fin 1)))
          ((Finset.univ : Finset (Fin 1024)).fold max (Ideal.ofBits .f32 0xFF800000#32) (fun j => k0_pay8 (F := Ideal) v3 v4 (ix2 n j))) := by
  unfold k0_pay9
  try dsimp only
  show max (v11 (ix2 n (0 : Fin 1))) (shapeCast S2048x1 _ shapeCasts_S2048_S2048x1 (ix2 n (0 : Fin 1))) = _
  rw [shapeCast_a_a1_apply]
  exact congrArg (max _) (rowmax_at _ n)

/-- The rescaling factor of row n: exp (old maximum − new maximum). -/
theorem rescale_at (v3 : FVec Ideal S2048x128 .bf16) (v4 : FVec Ideal S1x1024x128 .f32) (v11 : FVec Ideal S2048x1 .f32) (n : Fin 2048) :
    k0_pay10 (F := Ideal) v3 v4 v11 (ix2 n (0 : Fin 1))
      = Ideal.exp (v11 (ix2 n (0 : Fin 1)) - k0_pay9 (F := Ideal) v3 v4 v11 (ix2 n (0 : Fin 1))) := rfl

/-- The block's weights: exp (score − new maximum). -/
theorem weight_at (v3 : FVec Ideal S2048x128 .bf16) (v4 : FVec Ideal S1x1024x128 .f32) (v11 : FVec Ideal S2048x1 .f32) (n : Fin 2048) (j : Fin 1024) :
    k0_pay11 (F := Ideal) v3 v4 v11 (ix2 n j)
      = Ideal.exp (k0_pay8 (F := Ideal) v3 v4 (ix2 n j) - k0_pay9 (F := Ideal) v3 v4 v11 (ix2 n (0 : Fin 1))) := by
  unfold k0_pay11
  try dsimp only
  show Ideal.exp (k0_pay8 (F := Ideal) v3 v4 (ix2 n j) - broadcastTo S2048x1024 (k0_pay9 (F := Ideal) v3 v4 v11) broadcasts_S2048x1_S2048x1024 (ix2 n j)) = _
  rw [broadcastTo_a1_ab_apply]

/-- One step of the normaliser: the old one rescaled, plus the block's weights. -/
theorem norm_step_at (v3 : FVec Ideal S2048x128 .bf16) (v4 : FVec Ideal S1x1024x128 .f32) (v11 v20 : FVec Ideal S2048x1 .f32) (n : Fin 2048) :
    k0_pay12 (F := Ideal) v3 v4 v11 v20 (ix2 n (0 : Fin 1))
      = k0_pay10 (F := Ideal) v3 v4 v11 (ix2 n (0 : Fin 1)) * v20 (ix2 n (0 : Fin 1))
          + ∑ j : Fin 1024, k0_pay11 (F := Ideal) v3 v4 v11 (ix2 n j) := by
  unfold k0_pay12
  try dsimp only
  rw [shapeCast_self]
  show k0_pay10 (F := Ideal) v3 v4 v11 (ix2 n (0 : Fin 1)) * v20 (ix2 n (0 : Fin 1)) + shapeCast S2048x1 _ shapeCasts_S2048_S2048x1 (ix2 n (0 : Fin 1)) = _
  rw [shapeCast_a_a1_apply]
  exact congrArg (_ + ·) (rowsum_at _ n)

/-- One step of the weighted sum: the old one rescaled, plus the block's weights against its value rows. -/
theorem acc_step_at (v3 : FVec Ideal S2048x128 .bf16) (v4 v7 : FVec Ideal S1x1024x128 .f32) (v11 : FVec Ideal S2048x1 .f32)
    (v28 : FVec Ideal S2048x128 .f32) (n : Fin 2048) (d : Fin 128) :
    k0_pay13 (F := Ideal) v3 v4 v7 v11 v28 (ix2 n d)
      = k0_pay10 (F := Ideal) v3 v4 v11 (ix2 n (0 : Fin 1)) * v28 (ix2 n d)
          + ∑ j : Fin 1024, k0_pay11 (F := Ideal) v3 v4 v11 (ix2 n j) * v7 (ix3 (0 : Fin 1) j d) := by
  unfold k0_pay13
  try dsimp only
  show broadcastTo S2048x128 (k0_pay10 (F := Ideal) v3 v4 v11) broadcasts_S2048x1_S2048x128 (ix2 n d) * v28 (ix2 n d) + _ = _
  rw [broadcastTo_a1_ab_apply]
  refine congrArg (_ + ·) ((pv_at _ _ n d).trans (Finset.sum_congr rfl fun j _ => congrArg (_ * ·) ?_))
  exact shapeCast_1ab_ab_apply v7 _ j d

/-- The final quotient: the weighted sum over the normaliser, row by row. -/
theorem quotient_at (v43 : FVec Ideal S2048x128 .f32) (v44 : FVec Ideal S2048x1 .f32) (n : Fin 2048) (d : Fin 128) :
    k0_pay3 (F := Ideal) v43 v44 (ix3 (0 : Fin 1) n d) = Ideal.div (v43 (ix2 n d)) (v44 (ix2 n (0 : Fin 1))) := by
  unfold k0_pay3
  try dsimp only
  rw [shapeCast_ab_1ab_apply]
  show Ideal.div (v43 (ix2 n d)) (broadcastTo S2048x128 v44 broadcasts_S2048x1_S2048x128 (ix2 n d)) = _
  rw [broadcastTo_a1_ab_apply]

/-- The stores of the running sums go through same-shape casts: the identity. -/
theorem pay1_eq (v : FVec Ideal S2048x128 .f32) : k0_pay1 (F := Ideal) v = v := by
  unfold k0_pay1; exact shapeCast_self _ _
theorem pay2_eq (v : FVec Ideal S2048x1 .f32) : k0_pay2 (F := Ideal) v = v := by
  unfold k0_pay2; exact shapeCast_self _ _

/-- The initial running maximum is -∞, the initial normaliser and weighted sum are 0. -/
theorem init_max_at (n : Fin 2048) : k0_pay4 (F := Ideal) (ix2 n (0 : Fin 1)) = Ideal.ofBits .f32 0xFF800000#32 := by
  unfold k0_pay4; (try dsimp only); rw [shapeCast_self]; rfl
theorem init_norm_at (n : Fin 2048) : k0_pay5 (F := Ideal) (ix2 n (0 : Fin 1)) = Ideal.ofBits .f32 0x00000000#32 := by
  unfold k0_pay5; (try dsimp only); rw [shapeCast_self]; rfl
theorem init_acc_at (n : Fin 2048) (d : Fin 128) : k0_pay6 (F := Ideal) (ix2 n d) = Ideal.ofBits .f32 0x00000000#32 := by
  unfold k0_pay6; (try dsimp only); rw [shapeCast_self]; rfl

end Cert.KernelIdeal.PayloadAt

end
-- ==== Proof.StreamLaw.lean ====
/-
  The law behind a softmax-weighted average computed in two passes over the keys.

  For one query row with real scores `s j` and values `v j`, the reference forms the weights
  `exp (s j - M) / ∑ i, exp (s i - M)` (M the row's maximum) and then sums `weight · v`; the streaming form keeps
  a running maximum `m`, a running normaliser `l` and a running weighted sum `acc`, and when a new block of keys
  arrives rescales both by `exp (m_old - m_new)` before adding the block's contribution, dividing only at the end.

  Both are the same number, `(∑ j, exp (s j) · v j) / (∑ j, exp (s j))`, because subtracting ANY real constant from
  every score multiplies numerator and denominator by the same positive factor. So nothing here needs the shifts to
  be maxima: they only have to be real numbers.
-/
import Mathlib.Analysis.SpecialFunctions.Exp
import Mathlib.Algebra.BigOperators.Fin
import Mathlib.Tactic.FieldSimp
import Mathlib.Tactic.Ring

namespace Cert.StreamLaw

open scoped BigOperators

variable {ι : Type*} [Fintype ι]

/-- Shifting every score by `m` pulls the factor `exp (-m)` out of the weighted sum. -/
theorem shift_sum_mul (s v : ι → ℝ) (m : ℝ) :
    ∑ j, Real.exp (s j - m) * v j = Real.exp (-m) * ∑ j, Real.exp (s j) * v j := by
  rw [Finset.mul_sum]
  refine Finset.sum_congr rfl fun j _ => ?_
  rw [← mul_assoc, ← Real.exp_add]
  congr 2; ring

/-- … and out of the normaliser. -/
theorem shift_sum (s : ι → ℝ) (m : ℝ) :
    ∑ j, Real.exp (s j - m) = Real.exp (-m) * ∑ j, Real.exp (s j) := by
  rw [Finset.mul_sum]
  refine Finset.sum_congr rfl fun j _ => ?_
  rw [← Real.exp_add]
  congr 1; ring

/-- A normaliser over a nonempty block is positive. -/
theorem sum_exp_pos [Nonempty ι] (s : ι → ℝ) : 0 < ∑ j, Real.exp (s j) :=
  Finset.sum_pos (fun j _ => Real.exp_pos _) Finset.univ_nonempty

/-- THE STREAMING FORM, two blocks. After the first block the running sums are taken against `m₁`; the second
    block rescales them by `exp (m₁ - m₂)` and adds its own terms against `m₂`; the final quotient is the
    weighted average of all the keys with the plain weights `exp (s j)`. -/
theorem two_pass [Nonempty ι] (s₁ s₂ v₁ v₂ : ι → ℝ) (m₁ m₂ : ℝ) :
    (Real.exp (m₁ - m₂) * (∑ j, Real.exp (s₁ j - m₁) * v₁ j) + ∑ j, Real.exp (s₂ j - m₂) * v₂ j)
        * (1 / (Real.exp (m₁ - m₂) * (∑ j, Real.exp (s₁ j - m₁)) + ∑ j, Real.exp (s₂ j - m₂)))
      = ((∑ j, Real.exp (s₁ j) * v₁ j) + ∑ j, Real.exp (s₂ j) * v₂ j)
          / ((∑ j, Real.exp (s₁ j)) + ∑ j, Real.exp (s₂ j)) := by
  rw [shift_sum_mul, shift_sum_mul, shift_sum, shift_sum]
  have h : ∀ x : ℝ, Real.exp (m₁ - m₂) * (Real.exp (-m₁) * x) = Real.exp (-m₂) * x := fun x => by
    rw [← mul_assoc, ← Real.exp_add]; congr 2; ring
  rw [h, h, ← mul_add, ← mul_add]
  have hL : (∑ j, Real.exp (s₁ j)) + ∑ j, Real.exp (s₂ j) ≠ 0 :=
    (add_pos (sum_exp_pos s₁) (sum_exp_pos s₂)).ne'
  have he : Real.exp (-m₂) ≠ 0 := (Real.exp_pos _).ne'
  field_simp

/-- THE REFERENCE FORM: each weight is normalised first (against any shift `M`), then the weighted values are
    summed; the same average. -/
theorem normalise_first [Nonempty ι] (s v : ι → ℝ) (M : ℝ) :
    ∑ j, (Real.exp (s j - M) * (1 / ∑ i, Real.exp (s i - M))) * v j
      = (∑ j, Real.exp (s j) * v j) / (∑ j, Real.exp (s j)) := by
  have hL : (∑ j, Real.exp (s j)) ≠ 0 := (sum_exp_pos s).ne'
  have he : Real.exp (-M) ≠ 0 := (Real.exp_pos _).ne'
  have : ∀ j, (Real.exp (s j - M) * (1 / ∑ i, Real.exp (s i - M))) * v j
      = (Real.exp (s j - M) * v j) * (1 / ∑ i, Real.exp (s i - M)) := fun j => by ring
  simp only [this]
  rw [← Finset.sum_mul, shift_sum_mul, shift_sum]
  field_simp

/-- A sum over 2048 keys is the sum over its two halves of 1024: key `h · 1024 + j` is entry `j` of half `h`. -/
theorem sum_halves {M : Type*} [AddCommMonoid M] (f : Fin 2048 → M) :
    ∑ j : Fin 2048, f j
      = (∑ j : Fin 1024, f ⟨0 * 1024 + 1 * j.val, by omega⟩) + ∑ j : Fin 1024, f ⟨1 * 1024 + 1 * j.val, by omega⟩ := by
  have h := Fin.sum_univ_add (a := 1024) (b := 1024) (f := fun i => f ⟨i.val, by have := i.isLt; omega⟩)
  refine Eq.trans ?_ (h.trans ?_)
  · rfl
  · congr 1 <;> (refine Finset.sum_congr rfl fun j _ => congrArg f (Fin.ext ?_); simp)

end Cert.StreamLaw
-- ==== Proof.Consts.lean ====
/-
  The float literals the two programs spell, as the extended reals their bit patterns denote: the reference's
  divisor (the f32 nearest to √128, an exact dyadic rational), the `-∞` the running maximum starts from, and zero.
  Stated once here so that no other module unfolds the pattern decoder.
-/
import Idealize.ShloMosaic.PureOps.Ideal
import Idealize.ShloMosaic.PureOps.Ideal.Laws

noncomputable section

namespace Cert.Consts

open Idealize.ShloMosaic

/-- The reference's divisor `0x413504F3` is the dyadic rational 11863283 / 2^20. -/
theorem ofBits_temperature : Ideal.ofBits .f32 0x413504F3#32 = ((11863283 / 1048576 : ℝ) : EReal) := by
  simp [Ideal.ofBits, Ideal.ieee, -EReal.coe_mul]; norm_num

/-- `0xFF800000` is `-∞`, the bottom of the extended reals. -/
theorem ofBits_neg_inf : Ideal.ofBits .f32 0xFF800000#32 = ⊥ := by
  simp [Ideal.ofBits, Ideal.ieee]

/-- `0x00000000` is `0`. -/
theorem ofBits_zero : Ideal.ofBits .f32 0x00000000#32 = 0 := Ideal.ofBits_zero_f32

/-- The kernel's multiplier, named `1048576 / 11863283`, is the reciprocal of the reference's divisor. -/
theorem inv_temperature : (1 / (11863283 / 1048576 : ℝ)) = (1048576 / 11863283 : ℝ) := by norm_num

end Cert.Consts

end
-- ==== Proof.RowLaw.lean ====
/-
  One query row through the two streaming steps, over the extended reals, when the scores and the values are real.

  The running maximum starts at -∞, so the first rescaling factor is exp (-∞) = 0 and kills the (zero) initial sums;
  a maximum over a nonempty block of reals, taken from -∞, is a real number, so from the first step on every
  quantity is a real and the two-pass law for reals applies; the final division is by a positive real.
-/
import proofs.«116436_j27255862461085_2_alg».proof.Proof.StreamLaw
import proofs.«116436_j27255862461085_2_alg».proof.Proof.Consts
import Idealize.ShloMosaic.PureOps.Ideal
import Idealize.ShloMosaic.PureOps.Ideal.Laws

noncomputable section

namespace Cert.RowLaw

open Idealize.ShloMosaic
open scoped BigOperators

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  refine Finset.induction_on s (by simp) (fun a s ha ih => ?_)
  rw [Finset.sum_insert ha, Finset.sum_insert ha, EReal.coe_add, ih]

/-- The maximum, taken from -∞, of a nonempty finite family of reals is a real. -/
theorem fold_max_coe {ι : Type*} [Fintype ι] [Nonempty ι] (f : ι → ℝ) :
    ∃ r : ℝ, (Finset.univ : Finset ι).fold max (⊥ : EReal) (fun i => ((f i : ℝ) : EReal)) = (r : EReal) := by
  have h1 : (Finset.univ : Finset ι).fold max (⊥ : EReal) (fun i => ((f i : ℝ) : EReal)) ≠ ⊥ := by
    obtain ⟨i0⟩ := ‹Nonempty ι›
    have h := (Finset.le_fold_max (s := (Finset.univ : Finset ι)) (b := (⊥ : EReal)) (f := fun i => ((f i : ℝ) : EReal))
      ((f i0 : ℝ) : EReal)).mpr (Or.inr ⟨i0, Finset.mem_univ _, le_rfl⟩)
    intro hb
    rw [hb] at h
    exact absurd (le_bot_iff.mp h) (EReal.coe_ne_bot _)
  have h2 : (Finset.univ : Finset ι).fold max (⊥ : EReal) (fun i => ((f i : ℝ) : EReal)) ≠ ⊤ :=
    ((Finset.fold_max_lt (⊤ : EReal)).mpr ⟨bot_lt_top, fun i _ => EReal.coe_lt_top _⟩).ne
  exact ⟨_, (EReal.coe_toReal h2 h1).symm⟩

/-- THE ROW. `S₁, S₂` are the scores of the two key blocks, `v₁, v₂` the matching entries of one value column. The
    hypotheses are the two streaming steps as the body computes them: the maximum against the block's maximum, the
    normaliser and the weighted sum rescaled by exp (old maximum − new maximum) plus the block's terms. The final
    quotient is the weighted average with the plain weights exp (score). -/
theorem row_out (S₁ S₂ v₁ v₂ : Fin 1024 → ℝ) (m₁ m₂ l₁ a₁ l₂ a₂ : EReal)
    (hm₁ : m₁ = max (Ideal.ofBits .f32 0xFF800000#32)
      ((Finset.univ : Finset (Fin 1024)).fold max (Ideal.ofBits .f32 0xFF800000#32) (fun j => ((S₁ j : ℝ) : EReal))))
    (hl₁ : l₁ = Ideal.exp (Ideal.ofBits .f32 0xFF800000#32 - m₁) * Ideal.ofBits .f32 0x00000000#32
      + ∑ j : Fin 1024, Ideal.exp (((S₁ j : ℝ) : EReal) - m₁))
    (ha₁ : a₁ = Ideal.exp (Ideal.ofBits .f32 0xFF800000#32 - m₁) * Ideal.ofBits .f32 0x00000000#32
      + ∑ j : Fin 1024, Ideal.exp (((S₁ j : ℝ) : EReal) - m₁) * ((v₁ j : ℝ) : EReal))
    (hm₂ : m₂ = max m₁
      ((Finset.univ : Finset (Fin 1024)).fold max (Ideal.ofBits .f32 0xFF800000#32) (fun j => ((S₂ j : ℝ) : EReal))))
    (hl₂ : l₂ = Ideal.exp (m₁ - m₂) * l₁ + ∑ j : Fin 1024, Ideal.exp (((S₂ j : ℝ) : EReal) - m₂))
    (ha₂ : a₂ = Ideal.exp (m₁ - m₂) * a₁ + ∑ j : Fin 1024, Ideal.exp (((S₂ j : ℝ) : EReal) - m₂) * ((v₂ j : ℝ) : EReal)) :
    Ideal.div a₂ l₂
      = ((((∑ j, Real.exp (S₁ j) * v₁ j) + ∑ j, Real.exp (S₂ j) * v₂ j)
          / ((∑ j, Real.exp (S₁ j)) + ∑ j, Real.exp (S₂ j)) : ℝ) : EReal) := by
  haveI : Nonempty (Fin 1024) := ⟨0⟩
  rw [Cert.Consts.ofBits_neg_inf] at hm₁ hl₁ ha₁ hm₂
  rw [Cert.Consts.ofBits_zero] at hl₁ ha₁
  obtain ⟨r₁, hr₁⟩ := fold_max_coe S₁
  obtain ⟨r₂, hr₂⟩ := fold_max_coe S₂
  rw [hr₁, max_eq_right bot_le] at hm₁
  subst hm₁
  rw [hr₂] at hm₂
  obtain ⟨μ, hμ⟩ : ∃ μ : ℝ, m₂ = (μ : EReal) :=
    ⟨max r₁ r₂, by rw [hm₂]; exact (EReal.coe_strictMono.monotone.map_max).symm⟩
  subst hμ
  have e₁ : l₁ = ((∑ j, Real.exp (S₁ j - r₁) : ℝ) : EReal) := by
    rw [hl₁, EReal.bot_sub, Ideal.exp_bot, zero_mul, zero_add, coe_sum]
    exact Finset.sum_congr rfl fun j _ => by rw [← EReal.coe_sub, Ideal.exp_coe]
  have e₂ : a₁ = ((∑ j, Real.exp (S₁ j - r₁) * v₁ j : ℝ) : EReal) := by
    rw [ha₁, EReal.bot_sub, Ideal.exp_bot, zero_mul, zero_add, coe_sum]
    exact Finset.sum_congr rfl fun j _ => by rw [← EReal.coe_sub, Ideal.exp_coe, ← EReal.coe_mul]
  have e₃ : l₂ = ((Real.exp (r₁ - μ) * (∑ j, Real.exp (S₁ j - r₁)) + ∑ j, Real.exp (S₂ j - μ) : ℝ) : EReal) := by
    rw [hl₂, e₁, ← EReal.coe_sub, Ideal.exp_coe, ← EReal.coe_mul, EReal.coe_add, coe_sum _ (fun j => Real.exp (S₂ j - μ))]
    exact congrArg (_ + ·) (Finset.sum_congr rfl fun j _ => by rw [← EReal.coe_sub, Ideal.exp_coe])
  have e₄ : a₂ = ((Real.exp (r₁ - μ) * (∑ j, Real.exp (S₁ j - r₁) * v₁ j) + ∑ j, Real.exp (S₂ j - μ) * v₂ j : ℝ) : EReal) := by
    rw [ha₂, e₂, ← EReal.coe_sub, Ideal.exp_coe, ← EReal.coe_mul, EReal.coe_add, coe_sum _ (fun j => Real.exp (S₂ j - μ) * v₂ j)]
    exact congrArg (_ + ·) (Finset.sum_congr rfl fun j _ => by rw [← EReal.coe_sub, Ideal.exp_coe, ← EReal.coe_mul])
  have hL : (Real.exp (r₁ - μ) * (∑ j, Real.exp (S₁ j - r₁)) + ∑ j, Real.exp (S₂ j - μ)) ≠ 0 :=
    (add_pos (mul_pos (Real.exp_pos _) (Cert.StreamLaw.sum_exp_pos _)) (Cert.StreamLaw.sum_exp_pos _)).ne'
  rw [e₃, e₄, Ideal.div_coe hL, ← EReal.coe_mul, Cert.StreamLaw.two_pass]

end Cert.RowLaw

end
-- ==== Proof.AttnSpec.lean ====
/-
  THE SPECIFICATION: what both programs compute, as one real-valued function of the three argument arrays read as
  arrays of reals (queries q, keys k, values v, each [16, 2048, 128]).

  For batch b, query row n and output column d: the score of key j is the dot product over the 128 features of the
  query row SCALED by c with the key row, `s j = ∑ a, (q[b,n,a] · c) · k[b,j,a]`, and the result is the average of
  the value rows `v[b,j,d]` weighted by `exp (s j)`. The 2048 keys are written as two halves of 1024 (key
  `h · 1024 + j` is entry j of half h): that is how the streaming program meets them, and a sum over all 2048 is the
  sum of the two halves.
-/
import Mathlib.Analysis.SpecialFunctions.Exp
import Idealize.ShloMosaic.Lib.ValueIdx

noncomputable section

namespace Cert.AttnSpec

open Idealize.ShloMosaic Idealize.ShloMosaic.ValueIdx
open scoped BigOperators

/-- The arrays' shape, [16, 2048, 128]. -/
abbrev SArr : Shape := ⟨3, ![16, 2048, 128]⟩

/-- The scale: the reciprocal of the reference's divisor. -/
abbrev c : ℝ := 1048576 / 11863283

/-- Key `h · 1024 + j`: entry `j` of half `h`. -/
abbrev key (h : Fin 2) (j : Fin 1024) : Fin 2048 := ⟨h.val * 1024 + 1 * j.val, by omega⟩

/-- The score of key `j'` for query row `n` of batch `b`. -/
def score (q k : SArr.Idx → ℝ) (b : Fin 16) (n : Fin 2048) (j' : Fin 2048) : ℝ :=
  ∑ a : Fin 128, (q (ix3 b n a) * c) * k (ix3 b j' a)

/-- Half `h`'s share of the weighted sum of column `d`. -/
def num (q k v : SArr.Idx → ℝ) (b : Fin 16) (n : Fin 2048) (d : Fin 128) (h : Fin 2) : ℝ :=
  ∑ j : Fin 1024, Real.exp (score q k b n (key h j)) * v (ix3 b (key h j) d)

/-- Half `h`'s share of the normaliser. -/
def den (q k : SArr.Idx → ℝ) (b : Fin 16) (n : Fin 2048) (h : Fin 2) : ℝ :=
  ∑ j : Fin 1024, Real.exp (score q k b n (key h j))

/-- The attention output at (b, n, d). -/
def out (q k v : SArr.Idx → ℝ) (b : Fin 16) (n : Fin 2048) (d : Fin 128) : ℝ :=
  (num q k v b n d 0 + num q k v b n d 1) / (den q k b n 0 + den q k b n 1)

/-- The output array, as extended reals. -/
def outE (q k v : SArr.Idx → ℝ) : SArr.Idx → EReal :=
  fun i => ((out q k v (i 0) (i 1) (i 2) : ℝ) : EReal)

end Cert.AttnSpec

end
-- ==== Proof.KernelRow.lean ====
/-
  One output entry of the streaming program, from the blocks it read: with real queries, keys and values, the
  quotient the second pass stores at (n, d) is the specification's weighted average for that batch.
  Stated over arbitrary blocks with their entries given as hypotheses, so that nothing here mentions a window.
-/
import proofs.«116436_j27255862461085_2_alg».proof.Proof.PayloadAt
import proofs.«116436_j27255862461085_2_alg».proof.Proof.RowLaw
import proofs.«116436_j27255862461085_2_alg».proof.Proof.AttnSpec

noncomputable section

namespace Cert.KernelIdeal.Row

open Cert.KernelIdeal Cert.KernelIdeal.Gen Idealize.ShloMosaic Idealize.ShloMosaic.ValueIdx
open Cert.AttnSpec Cert.KernelIdeal.PayloadAt

variable (q k v : SArr.Idx → ℝ) (b : Fin 16)

/-- The score matrix of half `h` of the keys against the scaled queries: the specification's scores. -/
theorem block_scores (X0 : FVec Ideal S1x2048x128 .f32) (K : FVec Ideal S1x1024x128 .f32) (h : Fin 2)
    (hX0 : ∀ (n : Fin 2048) (a : Fin 128), X0 (ix3 (0 : Fin 1) n a) = ((q (ix3 b n a) : ℝ) : EReal))
    (hK : ∀ (j : Fin 1024) (a : Fin 128), K (ix3 (0 : Fin 1) j a) = ((k (ix3 b (key h j) a) : ℝ) : EReal))
    (n : Fin 2048) (j : Fin 1024) :
    k0_pay8 (F := Ideal) (k0_pay7 (F := Ideal) X0) K (ix2 n j) = ((score q k b n (key h j) : ℝ) : EReal) := by
  rw [scores_at]
  unfold score
  rw [Cert.RowLaw.coe_sum]
  refine Finset.sum_congr rfl fun a _ => ?_
  rw [scaled_at, hX0, hK, ← EReal.coe_mul, ← EReal.coe_mul]

/-- THE ENTRY. `X0` is the batch's query block, `K1, V1` the first half's key and value blocks, `K2, V2` the second
    half's. The first pass runs one step from (-∞, 0, 0); the second one more step from what the first left, and
    divides. -/
theorem entry (X0 : FVec Ideal S1x2048x128 .f32) (K1 V1 K2 V2 : FVec Ideal S1x1024x128 .f32)
    (hX0 : ∀ (n : Fin 2048) (a : Fin 128), X0 (ix3 (0 : Fin 1) n a) = ((q (ix3 b n a) : ℝ) : EReal))
    (hK1 : ∀ (j : Fin 1024) (a : Fin 128), K1 (ix3 (0 : Fin 1) j a) = ((k (ix3 b (key 0 j) a) : ℝ) : EReal))
    (hV1 : ∀ (j : Fin 1024) (d : Fin 128), V1 (ix3 (0 : Fin 1) j d) = ((v (ix3 b (key 0 j) d) : ℝ) : EReal))
    (hK2 : ∀ (j : Fin 1024) (a : Fin 128), K2 (ix3 (0 : Fin 1) j a) = ((k (ix3 b (key 1 j) a) : ℝ) : EReal))
    (hV2 : ∀ (j : Fin 1024) (d : Fin 128), V2 (ix3 (0 : Fin 1) j d) = ((v (ix3 b (key 1 j) d) : ℝ) : EReal))
    (n : Fin 2048) (d : Fin 128) :
    k0_pay3 (F := Ideal)
        (k0_pay1 (F := Ideal) (k0_pay13 (F := Ideal) (k0_pay7 (F := Ideal) X0) K2 V2 (k0_pay2 (F := Ideal) (k0_pay9 (F := Ideal) (k0_pay7 (F := Ideal) X0) K1 (k0_pay4 (F := Ideal)))) (k0_pay1 (F := Ideal) (k0_pay13 (F := Ideal) (k0_pay7 (F := Ideal) X0) K1 V1 (k0_pay4 (F := Ideal)) (k0_pay6 (F := Ideal))))))
        (k0_pay12 (F := Ideal) (k0_pay7 (F := Ideal) X0) K2 (k0_pay2 (F := Ideal) (k0_pay9 (F := Ideal) (k0_pay7 (F := Ideal) X0) K1 (k0_pay4 (F := Ideal)))) (k0_pay12 (F := Ideal) (k0_pay7 (F := Ideal) X0) K1 (k0_pay4 (F := Ideal)) (k0_pay5 (F := Ideal))))
        (ix3 (0 : Fin 1) n d)
      = ((out q k v b n d : ℝ) : EReal) := by
  rw [quotient_at, pay1_eq, pay1_eq, pay2_eq]
  have s1 := block_scores q k b X0 K1 0 hX0 hK1 n
  have s2 := block_scores q k b X0 K2 1 hX0 hK2 n
  refine (Cert.RowLaw.row_out (fun j => score q k b n (key 0 j)) (fun j => score q k b n (key 1 j))
    (fun j => v (ix3 b (key 0 j) d)) (fun j => v (ix3 b (key 1 j) d))
    ((k0_pay9 (F := Ideal) (k0_pay7 (F := Ideal) X0) K1 (k0_pay4 (F := Ideal))) (ix2 n (0 : Fin 1))) ((k0_pay9 (F := Ideal) (k0_pay7 (F := Ideal) X0) K2 (k0_pay9 (F := Ideal) (k0_pay7 (F := Ideal) X0) K1 (k0_pay4 (F := Ideal)))) (ix2 n (0 : Fin 1)))
    ((k0_pay12 (F := Ideal) (k0_pay7 (F := Ideal) X0) K1 (k0_pay4 (F := Ideal)) (k0_pay5 (F := Ideal))) (ix2 n (0 : Fin 1))) ((k0_pay13 (F := Ideal) (k0_pay7 (F := Ideal) X0) K1 V1 (k0_pay4 (F := Ideal)) (k0_pay6 (F := Ideal))) (ix2 n d))
    ((k0_pay12 (F := Ideal) (k0_pay7 (F := Ideal) X0) K2 (k0_pay9 (F := Ideal) (k0_pay7 (F := Ideal) X0) K1 (k0_pay4 (F := Ideal))) (k0_pay12 (F := Ideal) (k0_pay7 (F := Ideal) X0) K1 (k0_pay4 (F := Ideal)) (k0_pay5 (F := Ideal)))) (ix2 n (0 : Fin 1))) ((k0_pay13 (F := Ideal) (k0_pay7 (F := Ideal) X0) K2 V2 (k0_pay9 (F := Ideal) (k0_pay7 (F := Ideal) X0) K1 (k0_pay4 (F := Ideal))) (k0_pay13 (F := Ideal) (k0_pay7 (F := Ideal) X0) K1 V1 (k0_pay4 (F := Ideal)) (k0_pay6 (F := Ideal)))) (ix2 n d))
    ?_ ?_ ?_ ?_ ?_ ?_).trans ?_
  · rw [newmax_at, init_max_at]; simp only [s1]
  · rw [norm_step_at, rescale_at, init_max_at, init_norm_at]; simp only [weight_at, s1]
  · rw [acc_step_at, rescale_at, init_max_at, init_acc_at]; simp only [weight_at, s1, hV1]
  · rw [newmax_at]; simp only [s2]
  · rw [norm_step_at, rescale_at]; simp only [weight_at, s2]
  · rw [acc_step_at, rescale_at]; simp only [weight_at, s2, hV2]
  · rfl

end Cert.KernelIdeal.Row

end
-- ==== Proof.KernelValue.lean ====
/-
  The streaming program's result array, read off its run.

  The grid has 32 points: point 2b is the first pass over batch b (first half of the keys), point 2b + 1 the second
  pass (second half), and only the second pass writes the batch's output block back. The query and output blocks of
  point t are batch t / 2 whole; the key and value blocks are rows (t % 2) · 1024 … of batch t / 2. What the second
  pass writes is therefore the quotient of the specification, and the sixteen written blocks cover the array.
-/
import proofs.«116436_j27255862461085_2_alg».proof.Proof.Gen.KernelIdeal.Value
import proofs.«116436_j27255862461085_2_alg».proof.Proof.Pieces
import proofs.«116436_j27255862461085_2_alg».proof.Proof.KernelRow
import Idealize.ShloMosaic.Lib.Pipeline.Value

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx Cert.AttnSpec
open Idealize.ShloMosaic.Pipeline (Dat)

variable (m : (ℓ : Loc nD τ sig) → Buf (Elt Ideal) ℓ) (ρ : Dev nD → PrngReg)

/-- The printed index maps, decided over the grid: batch t / 2 for every window, half t % 2 for keys and values. -/
theorem idx_facts : ∀ t : Fin cfg0.N,
      win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The query block of point t is batch t / 2. -/
theorem qblk_at (c : Dev nD) (t : Fin cfg0.N) (b : Fin 16) (hb : b.val = t.val / 2) (n : Fin 2048) (a : Fin 128) :
    (iblk m c 0 t : FVec Ideal S1x2048x128 .f32) (ix3 (0 : Fin 1) n a)
      = (V m c main_arg0 : S16x2048x128.Idx → EReal) (ix3 b n a) := by
  obtain ⟨e0, e1, e2, -⟩ := idx_facts t
  unfold iblk
  rw [View.read_apply]
  show V m c main_arg0 _ = V m c main_arg0 _
  refine congrArg (V m c main_arg0) (funext fun ax => Fin.ext ?_)
  match ax with
  | ⟨0, _⟩ => show win0_0.index t (0 : Fin 3) * 1 + 1 * 0 = b.val; rw [e0, hb]; omega
  | ⟨1, _⟩ => show win0_0.index t (1 : Fin 3) * 2048 + 1 * n.val = n.val; rw [e1]; omega
  | ⟨2, _⟩ => show win0_0.index t (2 : Fin 3) * 128 + 1 * a.val = a.val; rw [e2]; omega

/-- The key block of point t is half t % 2 of batch t / 2. -/
theorem kblk_at (c : Dev nD) (t : Fin cfg0.N) (b : Fin 16) (h : Fin 2) (hb : b.val = t.val / 2) (hh : h.val = t.val % 2)
    (j : Fin 1024) (a : Fin 128) :
    (iblk m c 1 t : FVec Ideal S1x1024x128 .f32) (ix3 (0 : Fin 1) j a)
      = (V m c main_arg1 : S16x2048x128.Idx → EReal) (ix3 b (key h j) a) := by
  obtain ⟨-, -, -, e0, e1, e2, -⟩ := idx_facts t
  unfold iblk
  rw [View.read_apply]
  show V m c main_arg1 _ = V m c main_arg1 _
  refine congrArg (V m c main_arg1) (funext fun ax => Fin.ext ?_)
  match ax with
  | ⟨0, _⟩ => show win0_1.index t (0 : Fin 3) * 1 + 1 * 0 = b.val; rw [e0, hb]; omega
  | ⟨1, _⟩ => show win0_1.index t (1 : Fin 3) * 1024 + 1 * j.val = h.val * 1024 + 1 * j.val; rw [e1, hh]
  | ⟨2, _⟩ => show win0_1.index t (2 : Fin 3) * 128 + 1 * a.val = a.val; rw [e2]; omega

/-- The value block of point t likewise. -/
theorem vblk_at (c : Dev nD) (t : Fin cfg0.N) (b : Fin 16) (h : Fin 2) (hb : b.val = t.val / 2) (hh : h.val = t.val % 2)
    (j : Fin 1024) (d : Fin 128) :
    (iblk m c 2 t : FVec Ideal S1x1024x128 .f32) (ix3 (0 : Fin 1) j d)
      = (V m c main_arg2 : S16x2048x128.Idx → EReal) (ix3 b (key h j) d) := by
  obtain ⟨-, -, -, -, -, -, e0, e1, e2, -⟩ := idx_facts t
  unfold iblk
  rw [View.read_apply]
  show V m c main_arg2 _ = V m c main_arg2 _
  refine congrArg (V m c main_arg2) (funext fun ax => Fin.ext ?_)
  match ax with
  | ⟨0, _⟩ => show win0_2.index t (0 : Fin 3) * 1 + 1 * 0 = b.val; rw [e0, hb]; omega
  | ⟨1, _⟩ => show win0_2.index t (1 : Fin 3) * 1024 + 1 * j.val = h.val * 1024 + 1 * j.val; rw [e1, hh]
  | ⟨2, _⟩ => show win0_2.index t (2 : Fin 3) * 128 + 1 * d.val = d.val; rw [e2]; omega

/-! ## What the first pass (an even point) leaves in the four carried buffers -/

theorem left_queries (c : Dev nD) (t' : Fin cfg0.N) (h0 : t'.val % 2 = 0) (h1 : ¬t'.val % 2 = 1) :
    (outsAt0 m c t'.val t'.isLt).2.1 = k0_pay7 (F := Ideal) (iblk m c 0 t') := by
  rw [outsAt0_A m c t' h0 h1]
  dsimp only
  exact Pieces.scaled_queries (F := Ideal) c (grid0.coords t') (ms0_0 t') (hs0_0 t') (ms0_1 t') (hs0_1 t') (ms0_2 t') (hs0_2 t') (ms0_3 t') (hs0_3 t') scM0_0 (Memref.isWhole_whole _) scM0_1 (Memref.isWhole_whole _) scM0_2 (Memref.isWhole_whole _) scM0_3 (Memref.isWhole_whole _) ((hcond0_0 t').mpr h0) (fun h => h1 ((hcond0_1 t').mp h)) (iblk m c 0 t') (iblk m c 1 t') (iblk m c 2 t')

theorem left_max (c : Dev nD) (t' : Fin cfg0.N) (h0 : t'.val % 2 = 0) (h1 : ¬t'.val % 2 = 1) :
    (outsAt0 m c t'.val t'.isLt).2.2.1 = k0_pay2 (F := Ideal) (k0_pay9 (F := Ideal) (k0_pay7 (F := Ideal) (iblk m c 0 t')) (iblk m c 1 t') (k0_pay4 (F := Ideal))) := by
  rw [outsAt0_A m c t' h0 h1]
  dsimp only
  exact Pieces.first_max (F := Ideal) c (grid0.coords t') (ms0_0 t') (hs0_0 t') (ms0_1 t') (hs0_1 t') (ms0_2 t') (hs0_2 t') (ms0_3 t') (hs0_3 t') scM0_0 (Memref.isWhole_whole _) scM0_1 (Memref.isWhole_whole _) scM0_2 (Memref.isWhole_whole _) scM0_3 (Memref.isWhole_whole _) ((hcond0_0 t').mpr h0) (fun h => h1 ((hcond0_1 t').mp h)) (iblk m c 0 t') (iblk m c 1 t') (iblk m c 2 t')

theorem left_norm (c : Dev nD) (t' : Fin cfg0.N) (h0 : t'.val % 2 = 0) (h1 : ¬t'.val % 2 = 1) :
    (outsAt0 m c t'.val t'.isLt).2.2.2.1 = (k0_pay12 (F := Ideal) (k0_pay7 (F := Ideal) (iblk m c 0 t')) (iblk m c 1 t') (k0_pay4 (F := Ideal)) (k0_pay5 (F := Ideal))) := by
  rw [outsAt0_A m c t' h0 h1]
  dsimp only
  exact Pieces.first_norm (F := Ideal) c (grid0.coords t') (ms0_0 t') (hs0_0 t') (ms0_1 t') (hs0_1 t') (ms0_2 t') (hs0_2 t') (ms0_3 t') (hs0_3 t') scM0_0 (Memref.isWhole_whole _) scM0_1 (Memref.isWhole_whole _) scM0_2 (Memref.isWhole_whole _) scM0_3 (Memref.isWhole_whole _) ((hcond0_0 t').mpr h0) (fun h => h1 ((hcond0_1 t').mp h)) (iblk m c 0 t') (iblk m c 1 t') (iblk m c 2 t')

theorem left_acc (c : Dev nD) (t' : Fin cfg0.N) (h0 : t'.val % 2 = 0) (h1 : ¬t'.val % 2 = 1) :
    (outsAt0 m c t'.val t'.isLt).2.2.2.2 = k0_pay1 (F := Ideal) (k0_pay13 (F := Ideal) (k0_pay7 (F := Ideal) (iblk m c 0 t')) (iblk m c 1 t') (iblk m c 2 t') (k0_pay4 (F := Ideal)) (k0_pay6 (F := Ideal))) := by
  rw [outsAt0_A m c t' h0 h1]
  dsimp only
  exact Pieces.first_acc (F := Ideal) c (grid0.coords t') (ms0_0 t') (hs0_0 t') (ms0_1 t') (hs0_1 t') (ms0_2 t') (hs0_2 t') (ms0_3 t') (hs0_3 t') scM0_0 (Memref.isWhole_whole _) scM0_1 (Memref.isWhole_whole _) scM0_2 (Memref.isWhole_whole _) scM0_3 (Memref.isWhole_whole _) ((hcond0_0 t').mpr h0) (fun h => h1 ((hcond0_1 t').mp h)) (iblk m c 0 t') (iblk m c 1 t') (iblk m c 2 t')

/-! ## What the second pass writes back -/

/-- At an odd point the output block holds the final quotient over what the even point before left. -/
theorem second_block (c : Dev nD) (t : Fin cfg0.N) (h0 : ¬t.val % 2 = 0) (h1 : t.val % 2 = 1) (hlt : t.val - 1 < cfg0.N) :
    (outsAt0 m c t.val t.isLt).1
      = k0_pay3 (F := Ideal)
          (k0_pay1 (F := Ideal) (k0_pay13 (F := Ideal) (k0_pay7 (F := Ideal) (iblk m c 0 (⟨t.val - 1, hlt⟩ : Fin cfg0.N))) (iblk m c 1 t) (iblk m c 2 t) (k0_pay2 (F := Ideal) (k0_pay9 (F := Ideal) (k0_pay7 (F := Ideal) (iblk m c 0 (⟨t.val - 1, hlt⟩ : Fin cfg0.N))) (iblk m c 1 (⟨t.val - 1, hlt⟩ : Fin cfg0.N)) (k0_pay4 (F := Ideal)))) (k0_pay1 (F := Ideal) (k0_pay13 (F := Ideal) (k0_pay7 (F := Ideal) (iblk m c 0 (⟨t.val - 1, hlt⟩ : Fin cfg0.N))) (iblk m c 1 (⟨t.val - 1, hlt⟩ : Fin cfg0.N)) (iblk m c 2 (⟨t.val - 1, hlt⟩ : Fin cfg0.N)) (k0_pay4 (F := Ideal)) (k0_pay6 (F := Ideal))))))
          (k0_pay12 (F := Ideal) (k0_pay7 (F := Ideal) (iblk m c 0 (⟨t.val - 1, hlt⟩ : Fin cfg0.N))) (iblk m c 1 t) (k0_pay2 (F := Ideal) (k0_pay9 (F := Ideal) (k0_pay7 (F := Ideal) (iblk m c 0 (⟨t.val - 1, hlt⟩ : Fin cfg0.N))) (iblk m c 1 (⟨t.val - 1, hlt⟩ : Fin cfg0.N)) (k0_pay4 (F := Ideal)))) (k0_pay12 (F := Ideal) (k0_pay7 (F := Ideal) (iblk m c 0 (⟨t.val - 1, hlt⟩ : Fin cfg0.N))) (iblk m c 1 (⟨t.val - 1, hlt⟩ : Fin cfg0.N)) (k0_pay4 (F := Ideal)) (k0_pay5 (F := Ideal)))) := by
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  rw [outsAt0_B m c t h0 h1]
  dsimp only
  refine (Pieces.second_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
  rw [left_queries m c (⟨t.val - 1, hlt⟩ : Fin cfg0.N) h0' h1', left_max m c (⟨t.val - 1, hlt⟩ : Fin cfg0.N) h0' h1',
    left_norm m c (⟨t.val - 1, hlt⟩ : Fin cfg0.N) h0' h1', left_acc m c (⟨t.val - 1, hlt⟩ : Fin cfg0.N) h0' h1']

/-- WHAT AN ODD POINT WRITES BACK is its block of the specification, when the arguments are real. -/
theorem flushed_eq (c : Dev nD) (q k v : SArr.Idx → ℝ)
    (hq : ∀ i, (V m c main_arg0 : S16x2048x128.Idx → EReal) i = ((q i : ℝ) : EReal))
    (hk : ∀ i, (V m c main_arg1 : S16x2048x128.Idx → EReal) i = ((k i : ℝ) : EReal))
    (hv : ∀ i, (V m c main_arg2 : S16x2048x128.Idx → EReal) i = ((v i : ℝ) : EReal))
    (t : Fin cfg0.N) (hf : (cfg0.win 3).flush t = true) :
    (dats m 0 c).flushed 3 t = ((cfg0.win 3).blk t).view.read (Elt Ideal) (outE q k v) := by
  have hN : cfg0.N = 32 := N_0
  have h1 : t.val % 2 = 1 := (flush0_3 t).mp hf
  have h0 : ¬t.val % 2 = 0 := by omega
  have htl := t.isLt
  have hlt : t.val - 1 < cfg0.N := by omega
  have ht' : (⟨t.val - 1, hlt⟩ : Fin cfg0.N).val = t.val - 1 := rfl
  have hb : (⟨t.val / 2, by omega⟩ : Fin 16).val = t.val / 2 := rfl
  have hb' : (⟨t.val / 2, by omega⟩ : Fin 16).val = (⟨t.val - 1, hlt⟩ : Fin cfg0.N).val / 2 := by rw [ht', hb]; omega
  obtain ⟨-, -, -, -, -, -, -, -, -, e0, e1, e2⟩ := idx_facts t
  rw [Cert.KernelIdeal.Value.flushed3, second_block m c t h0 h1 hlt]
  funext y
  obtain ⟨u, n, d, rfl⟩ : ∃ (u : Fin 1) (n : Fin 2048) (d : Fin 128), y = ix3 u n d := ⟨y 0, y 1, y 2, eq_ix3 y⟩
  obtain rfl : u = 0 := Subsingleton.elim _ _
  have hemb : ((cfg0.win 3).blk t).view.emb (ix3 (0 : Fin 1) n d) = (ix3 (⟨t.val / 2, by omega⟩ : Fin 16) n d : S16x2048x128.Idx) := by
    funext ax; apply Fin.ext
    match ax with
    | ⟨0, _⟩ => show win0_3.index t (0 : Fin 3) * 1 + 1 * 0 = t.val / 2; rw [e0]; omega
    | ⟨1, _⟩ => show win0_3.index t (1 : Fin 3) * 2048 + 1 * n.val = n.val; rw [e1]; omega
    | ⟨2, _⟩ => show win0_3.index t (2 : Fin 3) * 128 + 1 * d.val = d.val; rw [e2]; omega
  show k0_pay3 (F := Ideal) _ _ (ix3 (0 : Fin 1) n d) = outE q k v (((cfg0.win 3).blk t).view.emb (ix3 (0 : Fin 1) n d))
  rw [hemb]
  exact Cert.KernelIdeal.Row.entry q k v (⟨t.val / 2, by omega⟩ : Fin 16) (iblk m c 0 (⟨t.val - 1, hlt⟩ : Fin cfg0.N)) (iblk m c 1 (⟨t.val - 1, hlt⟩ : Fin cfg0.N)) (iblk m c 2 (⟨t.val - 1, hlt⟩ : Fin cfg0.N)) (iblk m c 1 t) (iblk m c 2 t)
    (fun n a => (qblk_at m c (⟨t.val - 1, hlt⟩ : Fin cfg0.N) _ hb' n a).trans (hq _))
    (fun j a => (kblk_at m c (⟨t.val - 1, hlt⟩ : Fin cfg0.N) _ 0 hb' (by show 0 = (t.val - 1) % 2; omega) j a).trans (hk _))
    (fun j d => (vblk_at m c (⟨t.val - 1, hlt⟩ : Fin cfg0.N) _ 0 hb' (by show 0 = (t.val - 1) % 2; omega) j d).trans (hv _))
    (fun j a => (kblk_at m c t _ 1 hb (by show 1 = t.val % 2; omega) j a).trans (hk _))
    (fun j d => (vblk_at m c t _ 1 hb (by show 1 = t.val % 2; omega) j d).trans (hv _))
    n d

/-- An index of the array is in point t's output block iff each coordinate is in the block's range. -/
theorem mem_blk (t : Fin cfg0.N) (i : S16x2048x128.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v0).slice (win0_3.rect t)).set ↔ _
  rw [View.set_slice_whole, Rect.mem_set_unit]
  exact Iff.rfl

/-- THE ARRAY after the run is the specification: batch b's block is written at point 2b + 1. -/
theorem final (c : Dev nD) (q k v : SArr.Idx → ℝ)
    (hq : ∀ i, (V m c main_arg0 : S16x2048x128.Idx → EReal) i = ((q i : ℝ) : EReal))
    (hk : ∀ i, (V m c main_arg1 : S16x2048x128.Idx → EReal) i = ((k i : ℝ) : EReal))
    (hv : ∀ i, (V m c main_arg2 : S16x2048x128.Idx → EReal) i = ((v i : ℝ) : EReal)) :
    (dats m 0 c).arrAt 3 cfg0.N = outE q k v :=
  (dats m 0 c).arrAt_eq_of_cover 3 (outE q k v) (flushed_eq m c q k v hq hk hv) fun i => by
    have hN : cfg0.N = 32 := N_0
    have hi0 : (i 0).val < 16 := (i 0).isLt
    have hi1 : (i 1).val < 2048 := (i 1).isLt
    have hi2 : (i 2).val < 128 := (i 2).isLt
    let t : Fin cfg0.N := ⟨2 * (i 0).val + 1, by omega⟩
    have htv : t.val = 2 * (i 0).val + 1 := rfl
    obtain ⟨-, -, -, -, -, -, -, -, -, e0, e1, e2⟩ := idx_facts t
    refine ⟨t, (flush0_3 t).mpr (by omega), ?_⟩
    rw [mem_blk]
    intro a
    match a with
    | ⟨0, _⟩ => show win0_3.index t (0 : Fin 3) * 1 ≤ (i 0).val ∧ (i 0).val < win0_3.index t (0 : Fin 3) * 1 + 1; rw [e0]; omega
    | ⟨1, _⟩ => show win0_3.index t (1 : Fin 3) * 2048 ≤ (i 1).val ∧ (i 1).val < win0_3.index t (1 : Fin 3) * 2048 + 2048; rw [e1]; omega
    | ⟨2, _⟩ => show win0_3.index t (2 : Fin 3) * 128 ≤ (i 2).val ∧ (i 2).val < win0_3.index t (2 : Fin 3) * 128 + 128; rw [e2]; omega

end Cert.KernelIdeal.Attn

end
-- ==== Proof.RefAttn.lean ====
/-
  The reference program computes the specification.

  At every output index (b, n, d) the reference forms the 2048 scores of query row n against the keys, divides
  them by the f32 nearest to the square root of 128, subtracts the row's maximum, exponentiates, normalises by the
  row's sum and sums the weights against column d of the values. With real arguments every intermediate value is a
  real number: the scores are finite sums of products, the row maximum of finitely many (and at least one) reals is
  a real, and a sum of positive exponentials is a nonzero real, so the division is a multiplication by a real
  reciprocal. The shift by the row maximum then cancels between numerator and denominator (it would for ANY real
  shift), which leaves the plain softmax-weighted average the specification states; the sum over the 2048 keys is
  written there as the sum over its two halves of 1024.
-/
import proofs.«116436_j27255862461085_2_alg».proof.Proof.Gen.ReferenceIdeal.Read
import proofs.«116436_j27255862461085_2_alg».proof.Proof.AttnSpec
import proofs.«116436_j27255862461085_2_alg».proof.Proof.StreamLaw
import proofs.«116436_j27255862461085_2_alg».proof.Proof.Consts
import Idealize.ShloMosaic.PureOps.Reduce
import Idealize.ShloMosaic.PureOps.Ideal
import Idealize.ShloMosaic.PureOps.Ideal.Laws
import Idealize.ShloMosaic.Lib.ValueIdx
import Mathlib.Data.EReal.Operations
import Mathlib.Data.Finset.Fold

noncomputable section

namespace Cert.RefAttn

open Idealize.ShloMosaic Idealize.ShloMosaic.ValueIdx
open Cert.ReferenceIdeal Cert.ReferenceIdeal.Gen Cert.ReferenceIdeal.Read Cert.AttnSpec
open scoped BigOperators

/-- The three argument arrays, real-valued, read as arrays of extended reals. -/
abbrev E (x : SArr.Idx → ℝ) : (⟨S16x2048x128, .f32⟩ : BufTy).Contents (Elt Ideal) := fun i => ((x i : ℝ) : EReal)

/-! ## Coercion of a finite sum -/

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The scores -/

theorem lidx_v0 (b : Fin 16) (n j : Fin 2048) (a : Fin 128) :
    lidx_main_v0 (ix3 b n j) a = ix3 b n a :=
  funext fun c => match c with | ⟨0, _⟩ => rfl | ⟨1, _⟩ => rfl | ⟨2, _⟩ => rfl

theorem ridx_v0 (b : Fin 16) (n j : Fin 2048) (a : Fin 128) :
    ridx_main_v0 (ix3 b n j) a = ix3 b j a :=
  funext fun c => match c with | ⟨0, _⟩ => rfl | ⟨1, _⟩ => rfl | ⟨2, _⟩ => rfl

/-- The reference's scaled score of key `j` for query row `n` of batch `b` is the specification's score: dividing
    the dot product by the divisor is multiplying it by the scale `c`, which moves inside the sum. -/
theorem score_eq (q k : SArr.Idx → ℝ) (b : Fin 16) (n j : Fin 2048) :
    val_main_v2 (F := Ideal) (E q) (E k) (ix3 b n j) = ((score q k b n j : ℝ) : EReal) := by
  rw [val_main_v2_apply, val_main_v0_apply, val_main_v1_apply, val_main_cst_apply]
  simp only [lidx_v0, ridx_v0, Ideal.hostDivf_def, Ideal.ofBits_def, Consts.ofBits_temperature]
  rw [Ideal.div_coe (by norm_num), Consts.inv_temperature]
  simp only [← EReal.coe_mul, ← coe_sum]
  rw [EReal.coe_eq_coe_iff]
  unfold score
  rw [Finset.sum_mul]
  refine Finset.sum_congr rfl fun a _ => ?_
  ring

/-! ## The row maximum is a real number -/

/-- A maximum, started from `-∞`, of finitely many and at least one real numbers is a real number. -/
theorem fold_max_real {ι : Type*} (s : Finset ι) (hs : s.Nonempty) (f : ι → EReal)
    (hf : ∀ i, ∃ r : ℝ, f i = (r : EReal)) :
    ∃ M : ℝ, s.fold max (⊥ : EReal) f = (M : EReal) := by
  have hbot : s.fold max (⊥ : EReal) f ≠ ⊥ := by
    obtain ⟨i, hi⟩ := hs
    obtain ⟨r, hr⟩ := hf i
    have h1 : ((r : ℝ) : EReal) ≤ s.fold max (⊥ : EReal) f :=
      (Finset.le_fold_max _).2 (Or.inr ⟨i, hi, hr ▸ le_rfl⟩)
    intro h
    rw [h] at h1
    exact absurd h1 (not_le.2 (EReal.bot_lt_coe r))
  have htop : s.fold max (⊥ : EReal) f ≠ ⊤ := by
    refine ne_of_lt ((Finset.fold_max_lt _).2 ⟨bot_lt_top, fun i _ => ?_⟩)
    obtain ⟨r, hr⟩ := hf i
    rw [hr]; exact EReal.coe_lt_top r
  exact ⟨(s.fold max (⊥ : EReal) f).toReal, (EReal.coe_toReal htop hbot).symm⟩

/-- The reduced index (b, n) with key `j` put back on the reduced axis is (b, n, j). -/
theorem lift_ix2 (h : S16x2048x2048.Reduces [2] S16x2048) (b : Fin 16) (n : Fin 2048)
    (j : Fin (S16x2048x2048.size 2)) :
    h.lift (ix2 b n) j = ix3 b n (⟨j.val, j.isLt⟩ : Fin 2048) := by
  funext c; apply Fin.ext
  fin_cases c <;> rfl

/-- The row maximum the reference subtracts is a real number. -/
theorem rowmax_real (q k : SArr.Idx → ℝ) (b : Fin 16) (n : Fin 2048) :
    ∃ M : ℝ, val_main_v5 (F := Ideal) (E q) (E k) (ix2 b n) = (M : EReal) := by
  have h : S16x2048x2048.Reduces [2] S16x2048 := by decide
  obtain ⟨M, hM⟩ := fold_max_real (Finset.univ : Finset (Fin (S16x2048x2048.size 2))) ⟨⟨0, by decide⟩, Finset.mem_univ _⟩
    (val_main_v2 (F := Ideal) (E q) (E k) ∘ h.lift (ix2 b n))
    (fun j => ⟨_, by rw [Function.comp_apply, lift_ix2 h b n j]; exact score_eq q k b n _⟩)
  refine ⟨M, ?_⟩
  rw [val_main_v5_apply, val_main_v4_apply, val_main_cst_1_apply]
  unfold val_main_v3
  rw [Host.reduce_eq_fold_single FloatOps.maximumf _ _ reducesTo_S16x2048x2048_S16x2048_d2 h h_S_,
    val_main_cst_0_apply, Ideal.ofBits_def, Consts.ofBits_neg_inf, Ideal.maximumf_def, max_eq_right bot_le]
  exact hM

/-! ## One output element -/

theorem idx_v7 (b : Fin 16) (n j : Fin 2048) : idx_main_v6 (idx_main_v7 (ix3 b n j)) = ix2 b n :=
  funext fun c => match c with | ⟨0, _⟩ => rfl | ⟨1, _⟩ => rfl

theorem idx_v12 (b : Fin 16) (n j : Fin 2048) : idx_main_v11 (idx_main_v12 (ix3 b n j)) = ix2 b n :=
  funext fun c => match c with | ⟨0, _⟩ => rfl | ⟨1, _⟩ => rfl

theorem idx_v10 (b : Fin 16) (n j : Fin 2048) : idx_main_v10 (ix2 b n) j = ix3 b n j :=
  funext fun c => match c with | ⟨0, _⟩ => rfl | ⟨1, _⟩ => rfl | ⟨2, _⟩ => rfl

theorem lidx_v14 (b : Fin 16) (n : Fin 2048) (d : Fin 128) (j : Fin 2048) :
    lidx_main_v14 (ix3 b n d) j = ix3 b n j :=
  funext fun c => match c with | ⟨0, _⟩ => rfl | ⟨1, _⟩ => rfl | ⟨2, _⟩ => rfl

theorem ridx_v14 (b : Fin 16) (n : Fin 2048) (d : Fin 128) (j : Fin 2048) :
    ridx_main_v14 (ix3 b n d) j = ix3 b j d :=
  funext fun c => match c with | ⟨0, _⟩ => rfl | ⟨1, _⟩ => rfl | ⟨2, _⟩ => rfl

/-- The exponential of the score shifted by the row maximum `M`, a real. -/
theorem exp_eq (q k : SArr.Idx → ℝ) (b : Fin 16) (n j : Fin 2048) (M : ℝ)
    (hM : val_main_v5 (F := Ideal) (E q) (E k) (ix2 b n) = (M : EReal)) :
    val_main_v9 (F := Ideal) (E q) (E k) (ix3 b n j) = ((Real.exp (score q k b n j - M) : ℝ) : EReal) := by
  rw [val_main_v9_apply, val_main_v8_apply, val_main_v7_apply, val_main_v6_apply, idx_v7, hM, score_eq,
    Ideal.hostUnary_exp_def, Ideal.subf_def, ← EReal.coe_sub, Ideal.exp_coe]

/-- The row's normaliser: zero plus the sum of the 2048 exponentials, a real. -/
theorem rowsum_eq (q k : SArr.Idx → ℝ) (b : Fin 16) (n : Fin 2048) (M : ℝ)
    (hM : val_main_v5 (F := Ideal) (E q) (E k) (ix2 b n) = (M : EReal)) :
    val_main_v10 (F := Ideal) (E q) (E k) (ix2 b n)
      = ((∑ j : Fin 2048, Real.exp (score q k b n j - M) : ℝ) : EReal) := by
  rw [val_main_v10_apply, val_main_cst_2_apply, Ideal.ofBits_def, Consts.ofBits_zero, zero_add, coe_sum]
  refine Finset.sum_congr rfl fun j _ => ?_
  rw [idx_v10, exp_eq q k b n j M hM]

/-- The normalised weight of key `j`: the normaliser is a positive real, so dividing by it is multiplying by its
    reciprocal. -/
theorem weight_eq (q k : SArr.Idx → ℝ) (b : Fin 16) (n j : Fin 2048) (M : ℝ)
    (hM : val_main_v5 (F := Ideal) (E q) (E k) (ix2 b n) = (M : EReal)) :
    val_main_v13 (F := Ideal) (E q) (E k) (ix3 b n j)
      = ((Real.exp (score q k b n j - M) * (1 / ∑ i : Fin 2048, Real.exp (score q k b n i - M)) : ℝ) : EReal) := by
  rw [val_main_v13_apply, val_main_v12_apply, val_main_v11_apply, idx_v12, rowsum_eq q k b n M hM,
    exp_eq q k b n j M hM, Ideal.hostDivf_def,
    Ideal.div_coe (StreamLaw.sum_exp_pos fun i : Fin 2048 => score q k b n i - M).ne', ← EReal.coe_mul]

/-- The reference's output at (b, n, d) is the specification's. -/
theorem out_eq (q k v : SArr.Idx → ℝ) (b : Fin 16) (n : Fin 2048) (d : Fin 128) :
    val_main_v14 (F := Ideal) (E q) (E k) (E v) (ix3 b n d) = ((out q k v b n d : ℝ) : EReal) := by
  obtain ⟨M, hM⟩ := rowmax_real q k b n
  rw [val_main_v14_apply]
  simp only [lidx_v14, ridx_v14, weight_eq q k b n _ M hM, ← EReal.coe_mul, ← coe_sum]
  rw [EReal.coe_eq_coe_iff]
  rw [StreamLaw.normalise_first (fun j => score q k b n j) (fun j => v (ix3 b j d)) M,
    StreamLaw.sum_halves (fun j => Real.exp (score q k b n j) * v (ix3 b j d)),
    StreamLaw.sum_halves (fun j => Real.exp (score q k b n j))]
  unfold out num den
  rfl

/-- THE REFERENCE IS THE SPECIFICATION: on real arguments the reference program's result array is `outE`. -/
theorem ref_eq (q k v : SArr.Idx → ℝ) :
    val_main_v14 (F := Ideal) (fun i => ((q i : ℝ) : EReal)) (fun i => ((k i : ℝ) : EReal))
        (fun i => ((v i : ℝ) : EReal))
      = outE q k v := by
  funext i
  obtain ⟨b, n, d, rfl⟩ : ∃ (b : Fin 16) (n : Fin 2048) (d : Fin 128), i = ix3 b n d :=
    ⟨i 0, i 1, i 2, eq_ix3 i⟩
  exact out_eq q k v b n d

end Cert.RefAttn

end
-- ==== Proof.Finite.lean ====
/-
  From the precondition to real numbers.

  The precondition says of each of the three argument arrays that every entry's absolute value is below +∞ (a
  comparison per entry, the conjunction of all of them, and the conjunction of the three results is 1). An extended
  real whose absolute value max x (-x) is below +∞ is neither -∞ nor +∞, so it is a real number.
-/
import proofs.«116436_j27255862461085_2_alg».proof.Defs
import proofs.«116436_j27255862461085_2_alg».proof.Proof.Gen.Pre_finite_inputs
import proofs.«116436_j27255862461085_2_alg».proof.Proof.AttnSpec
import Idealize.ShloMosaic.Lib.ReduceAll
import Idealize.ShloMosaic.Lib.Affine
import Idealize.ShloMosaic.Lib.ValueIdx
import Idealize.ShloMosaic.PureOps.Ideal
import Mathlib.Data.EReal.Basic

noncomputable section

namespace Cert.Finite

open Idealize.ShloMosaic Idealize.ShloMosaic.TcCoe Idealize.SL.Sem
open Cert.Pre_finite_inputs (S_ S16x2048x128)

/-- The scalar shape has one index. -/
instance : Subsingleton S_.Idx := ⟨fun a b => funext fun d => d.elim0⟩

/-- An extended real whose absolute value compares below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have h2 : max x (-x) < (⊤ : EReal) := by
    unfold Ideal.cmp at h1
    by_contra hn
    simp [hn] at h1
  induction x using EReal.rec with
  | bot => simp at h2
  | coe r => exact ⟨r, rfl⟩
  | top => simp at h2

/-- One array: if the conjunction over all its entries of "the absolute value is below +∞" is 1, every entry is a
    real number. -/
theorem all_real {init : S_.Idx → BitVec 1} {h' : S16x2048x128.ReducesTo [0, 1, 2] S_} {hu : 0 < S_.numel}
    {hb : S_.BroadcastsInDim S16x2048x128 (![] : Fin 0 → Fin S16x2048x128.rank)}
    (x : FVec Ideal S16x2048x128 .f32)
    (e : Host.reduce IntOp.andi
        (cmpf .olt (Host.absf x) (broadcastInDim S16x2048x128 ![] hb (constant S_ .f32 0x7F800000#32)))
        init h' hu ValueIdx.ix0 = 1#1)
    (i : S16x2048x128.Idx) : ∃ r : ℝ, x i = (r : EReal) :=
  real_of_abs_lt (x i) (Host.reduce_andi_all _ init h' hu _ e i)

/-- THE PRECONDITION DECODED: every entry of the three argument arrays is a real number. -/
theorem reals_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i : Cert.AttnSpec.SArr.Idx, ∃ r : ℝ,
        (m ((c.tc : Thread Cert.KernelIdeal.nD Cert.KernelIdeal.τ).loc Cert.KernelIdeal.main_arg0)
          : Cert.AttnSpec.SArr.Idx → EReal) i = (r : EReal))
    ∧ (∀ i : Cert.AttnSpec.SArr.Idx, ∃ r : ℝ,
        (m ((c.tc : Thread Cert.KernelIdeal.nD Cert.KernelIdeal.τ).loc Cert.KernelIdeal.main_arg1)
          : Cert.AttnSpec.SArr.Idx → EReal) i = (r : EReal))
    ∧ (∀ i : Cert.AttnSpec.SArr.Idx, ∃ r : ℝ,
        (m ((c.tc : Thread Cert.KernelIdeal.nD Cert.KernelIdeal.τ).loc Cert.KernelIdeal.main_arg2)
          : Cert.AttnSpec.SArr.Idx → EReal) i = (r : EReal)) := by
  have e := congrFun (h c) ValueIdx.ix0
  dsimp only [Cert.Pre_finite_inputs.fn, andi] at e
  rw [IntOp.andi_eq_one, IntOp.andi_eq_one] at e
  obtain ⟨⟨e0, e1⟩, e2⟩ := e
  exact ⟨all_real _ e0, all_real _ e1, all_real _ e2⟩

end Cert.Finite

end
-- ==== Proof.lean ====
/-
  A streaming ("flash") attention kernel against plain softmax attention, equal as extended reals.

  For queries, keys and values of shape [16, 2048, 128], the reference forms for each batch b and query row n the
  2048 scores (q[b,n,·] · k[b,j,·]) / D, with D the f32 nearest to √128, takes their softmax over j and sums the
  weights against the value rows. The kernel scales the queries by the reciprocal 1/D once (its literal is named
  1048576/11863283, the exact reciprocal of D's dyadic value 11863283/2^20), then streams over the keys in two blocks
  of 1024 keeping a running maximum m, normaliser l and weighted sum acc, rescaling l and acc by exp (m_old − m_new)
  when the second block arrives, and divides acc by l at the end.

  Why they agree, when every input is finite: the softmax-weighted average does not depend on the constant subtracted
  from the scores — it is (∑ⱼ exp sⱼ · vⱼ) / (∑ⱼ exp sⱼ) whatever the shift, as long as the shift is a real number —
  and both programs' shifts (a maximum, taken from -∞, over a nonempty set of real scores) are real. The running
  maximum starting at -∞ makes the first rescaling factor exp (-∞) = 0, which removes the zero initial sums; after
  that every quantity is real. Changes of float format are the identity here, and the two matrix products and the
  row sums are plain finite sums, so only this algebra is left.

  The pieces: the real-number law (StreamLaw), the specification as one real function (AttnSpec), the reference is
  the specification (RefAttn), one row of the kernel over extended reals (RowLaw, KernelRow, over the payloads read
  at an index in PayloadAt), what each pass of the body leaves (Pieces), the kernel's result array block by block
  (KernelValue), and finiteness of the inputs from the precondition (Finite).
-/
import proofs.«116436_j27255862461085_2_alg».proof.Defs
import proofs.«116436_j27255862461085_2_alg».proof.Proof.Gen.Kernel
import proofs.«116436_j27255862461085_2_alg».proof.Proof.Gen.Kernel.Skeleton
import proofs.«116436_j27255862461085_2_alg».proof.Proof.Gen.Kernel.Launch
import proofs.«116436_j27255862461085_2_alg».proof.Proof.Gen.Kernel.Points
import proofs.«116436_j27255862461085_2_alg».proof.Proof.Gen.Kernel.Frame
import proofs.«116436_j27255862461085_2_alg».proof.Proof.Gen.KernelIdeal
import proofs.«116436_j27255862461085_2_alg».proof.Proof.Gen.KernelIdeal.Skeleton
import proofs.«116436_j27255862461085_2_alg».proof.Proof.Gen.KernelIdeal.Launch
import proofs.«116436_j27255862461085_2_alg».proof.Proof.Gen.KernelIdeal.Points
import proofs.«116436_j27255862461085_2_alg».proof.Proof.Gen.KernelIdeal.Frame
import proofs.«116436_j27255862461085_2_alg».proof.Proof.Gen.ReferenceIdeal
import proofs.«116436_j27255862461085_2_alg».proof.Proof.Gen.Pre_finite_inputs
import proofs.«116436_j27255862461085_2_alg».proof.Proof.Gen.KernelIdeal.Value
import proofs.«116436_j27255862461085_2_alg».proof.Proof.Gen.ReferenceIdeal.Run
import proofs.«116436_j27255862461085_2_alg».proof.Proof.Gen.ReferenceIdeal.Read
import proofs.«116436_j27255862461085_2_alg».proof.Proof.KernelValue
import proofs.«116436_j27255862461085_2_alg».proof.Proof.RefAttn
import proofs.«116436_j27255862461085_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the kernel's multiplier is read as the exact reciprocal of the reference's
    divisor, which is what the name's table entry says. -/
theorem preserves : Cert.preserves_Kernel_KernelIdeal :=
  IdealRules.named_const.statement Cert.KernelIdeal.κ "inv_temperature" .f32 0x3DB504F3#32
    ((1048576 / 11863283 : ℝ) : EReal) rfl

/-- Both programs end with the specification's array of the (real) arguments. -/
theorem algebraic : Cert.algebraic_KernelIdeal_ReferenceIdeal := by
  intro m ρ m' ρ' hpre hagree
  have hR := fun c => Cert.Finite.reals_of_pre m hpre c
  choose q hq using fun c => (hR c).1
  choose k hk using fun c => (hR c).2.1
  choose v hv using fun c => (hR c).2.2
  refine ⟨fun c => Cert.AttnSpec.outE (q c) (k c) (v c), ?_, ?_⟩
  · exact (θ_run Cert.KernelIdeal.defs _ _).mono
      (fun r h c => ⟨(h c).1.trans (Cert.KernelIdeal.Attn.final m c (q c) (k c) (v c) (hq c) (hk c) (hv c)), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, (hagree c).1, (hagree c).2.1, (hagree c).2.2,
      show m ((c.tc : Thread Cert.KernelIdeal.nD Cert.KernelIdeal.τ).loc Cert.KernelIdeal.main_arg0) = (fun i => ((q c i : ℝ) : EReal)) from funext (hq c),
      show m ((c.tc : Thread Cert.KernelIdeal.nD Cert.KernelIdeal.τ).loc Cert.KernelIdeal.main_arg1) = (fun i => ((k c i : ℝ) : EReal)) from funext (hk c),
      show m ((c.tc : Thread Cert.KernelIdeal.nD Cert.KernelIdeal.τ).loc Cert.KernelIdeal.main_arg2) = (fun i => ((v c i : ℝ) : EReal)) from funext (hv c)]
    exact Cert.RefAttn.ref_eq (q c) (k c) (v c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
